-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S10000x32 : Shape := ⟨2, ![10000, 32]⟩
abbrev S1x32 : Shape := ⟨2, ![1, 32]⟩
abbrev S1x1 : Shape := ⟨2, ![1, 1]⟩

abbrev nBuf : Space → Nat
  | .hbm => 127
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S100000x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x1600000, .i32⟩
  | .hbm, ⟨70, _⟩ => ⟨S1600000, .i32⟩
  | .hbm, ⟨71, _⟩ => ⟨S1x1600000, .i32⟩
  | .hbm, ⟨72, _⟩ => ⟨S1600000, .i32⟩
  | .hbm, ⟨73, _⟩ => ⟨S100000, .i32⟩
  | .hbm, ⟨74, _⟩ => ⟨S1700000, .i32⟩
  | .hbm, ⟨75, _⟩ => ⟨S1700000, .i32⟩
  | .hbm, ⟨76, _⟩ => ⟨S_, .f32⟩
  | .hbm, ⟨77, _⟩ => ⟨S1700000, .f32⟩
  | .hbm, ⟨78, _⟩ => ⟨S_, .f32⟩
  | .hbm, ⟨79, _⟩ => ⟨S100000, .f32⟩
  | .hbm, ⟨80, _⟩ => ⟨S1700000x1, .i32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .i1⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000, .f32⟩
  | .hbm, ⟨108, _⟩ => ⟨S1700000, .f32⟩
  | .hbm, ⟨109, _⟩ => ⟨S1700000x1, .f32⟩
  | .hbm, ⟨110, _⟩ => ⟨S_, .i32⟩
  | .hbm, ⟨111, _⟩ => ⟨S1700000, .i32⟩
  | .hbm, ⟨112, _⟩ => ⟨S1700000, .i1⟩
  | .hbm, ⟨113, _⟩ => ⟨S_, .i32⟩
  | .hbm, ⟨114, _⟩ => ⟨S1700000, .i32⟩
  | .hbm, ⟨115, _⟩ => ⟨S1700000, .i32⟩
  | .hbm, ⟨116, _⟩ => ⟨S1700000, .i32⟩
  | .hbm, ⟨117, _⟩ => ⟨S1700000x1, .i32⟩
  | .hbm, ⟨118, _⟩ => ⟨S1700000x64, .f32⟩
  | .hbm, ⟨119, _⟩ => ⟨S1700000x64, .f32⟩
  | .hbm, ⟨120, _⟩ => ⟨S1700000x64, .f32⟩
  | .hbm, ⟨121, _⟩ => ⟨S_, .f32⟩
  | .hbm, ⟨122, _⟩ => ⟨S100000x64, .f32⟩
  | .hbm, ⟨123, _⟩ => ⟨S1700000x1, .i32⟩
  | .hbm, ⟨124, _⟩ => ⟨S100000x64, .f32⟩
  | .hbm, ⟨125, _⟩ => ⟨S100000x64, .f32⟩
  | .hbm, ⟨126, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S32, .f32⟩
  | .local _ .vmem, ⟨24, _⟩ => ⟨S32x1, .f32⟩
  | .local _ .vmem, ⟨25, _⟩ => ⟨S1, .f32⟩
  | .local _ .vmem, ⟨26, _⟩ => ⟨S10000x1, .f32⟩
  | .local _ .vmem, ⟨27, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32.size a ≤ S32.size a
  hwx4_2 : ∀ i : grid4.Coords, EltTy.bits .f32 = 32 ∨ (Rect.block (s := S32) S32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1.size a ≤ S1.size a
  hwx4_4 : ∀ i : grid4.Coords, EltTy.bits .f32 = 32 ∨ (Rect.block (s := S1) S1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S100000x1.size a
  hwx4_5 : ∀ i : grid4.Coords, EltTy.bits .f32 = 32 ∨ (Rect.block (s := S100000x1) S10000x1.size (cc4_transform_5 i) (hinb4_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S32x1, .f32⟩
  | 9 => ⟨S1, .f32⟩
  | 10 => ⟨S100000x64, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S1700000x1, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x1600000, .i32⟩
  | 75 => ⟨S1600000, .i32⟩
  | 76 => ⟨S1x1600000, .i32⟩
  | 77 => ⟨S1600000, .i32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S1700000x1, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x64, .f32⟩
  | 125 => ⟨S1700000x64, .f32⟩
  | 126 => ⟨S_, .f32⟩
  | 127 => ⟨S100000x64, .f32⟩
  | _ => ⟨S100000x128, .f32⟩

abbrev hbmTy0_1 (i : Nat) : BufTy := match i % 128 with
  | 0 => ⟨S1700000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x1, .f32⟩
  | 16 => ⟨S1x1, .f32⟩
  | 17 => ⟨S100000x1, .f32⟩
  | 18 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_call4_cst : Ref sig .tc := ⟨.hbm, 140, rfl⟩
abbrev main_call4_v0 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«155897_j20770461844169_1_alg».proof.Proof.LibMatmul
import proofs.«155897_j20770461844169_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.LibRowBias.lean ====
/-
  A bias added along the rows of a matrix, read at an entry at any sizes over the extended reals: entry (p, q) of the
  result is a (p, q) + b q. The host spells it with two broadcasts (the vector to a [1, f] row, the row along every row of
  the [n, f] matrix) and one add; a vector unit spells the row with a cast [f] -> [1, f] and a broadcast [1, f] -> [n, f].
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

/-- a + b along the rows: entry (p, q) is a (p, q) + b q. -/
def rowBias {n f : Nat} (a : FVec Ideal ⟨2, ![n, f]⟩ .f32) (b : FVec Ideal ⟨1, ![f]⟩ .f32) : FVec Ideal ⟨2, ![n, f]⟩ .f32 :=
  fun i => a i + b (ix1 (n := f) (i 1))

theorem rowBias_apply {n f : Nat} (a : FVec Ideal ⟨2, ![n, f]⟩ .f32) (b : FVec Ideal ⟨1, ![f]⟩ .f32) (p : Fin n) (q : Fin f) :
    rowBias a b (ix2 p q) = a (ix2 p q) + b (ix1 q) := rfl

/-- The host's two broadcasts of a vector [f], to the row [1, f] and then along the rows of [n, f], read at (p, q): the
    vector's entry q. -/
theorem host_row_apply {α : Type} {n f : Nat} (b : (⟨1, ![f]⟩ : Shape).Idx → α)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) (p : Fin n) (q : Fin f) :
    broadcastInDim ⟨2, ![n, f]⟩ ![0, 1] h4 (broadcastInDim ⟨2, ![1, f]⟩ ![1] h3 b) (ix2 p q) = b (ix1 q) := by
  refine (broadcastInDim_apply _ h4 _ (ix2 p q) (ix2 (0 : Fin 1) q) fun a => ?_).trans
    (broadcastInDim_apply _ h3 b (ix2 (0 : Fin 1) q) (ix1 q) fun a => ?_)
  · match a with
    | ⟨0, _⟩ => rfl
    | ⟨1, _⟩ =>
      show q.val = if f = 1 then 0 else q.val
      split
      · have := q.isLt; omega
      · rfl
  · match a with
    | ⟨0, _⟩ =>
      show q.val = if f = 1 then 0 else q.val
      split
      · have := q.isLt; omega
      · rfl

/-- The host's spelling of the bias along the rows is `rowBias`. -/
theorem host_rowBias {n f : Nat} (a : FVec Ideal ⟨2, ![n, f]⟩ .f32) (b : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf a (broadcastInDim ⟨2, ![n, f]⟩ ![0, 1] h4 (broadcastInDim ⟨2, ![1, f]⟩ ![1] h3 b)) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [host_row_apply]

end Cert.LibRowBias

end
-- ==== Proof.RefNet.lean ====
/-
  The reference program's result, as a function of the ten argument arrays over the extended reals.

  A graph-convolution layer takes node features h [100000, k], multiplies them by weights [k, 64], passes the product
  through the message-passing stretch `mid` (degrees counted by a scatter-add of ones over the edge targets and the
  self loops, their inverse square roots gathered at both ends of every edge and multiplied into the gathered rows of
  the product, the rows summed at their targets by a scatter-add), adds a bias along the rows and clamps below at zero.
  The network is two such layers and a head: a product with [64, 32] weights, bias, clamp, a product with [32, 1]
  weights, bias. `mid` is kept as ONE function of the product and the edge list, never opened: both programs apply it.
-/
import proofs.«155897_j20770461844169_1_alg».proof.ReferenceIdeal
import proofs.«155897_j20770461844169_1_alg».proof.Proof.Gen.ReferenceIdeal
import proofs.«155897_j20770461844169_1_alg».proof.Proof.RefRun
import proofs.«155897_j20770461844169_1_alg».proof.Proof.LibLayer
import proofs.«155897_j20770461844169_1_alg».proof.Proof.LibRowBias
import Idealize.ShloMosaic.Lib.ValueIdx
import Idealize.ShloMosaic.Lib.Pipeline.Value

set_option maxRecDepth 16384

noncomputable section

namespace Cert.Net

open Cert.ReferenceIdeal Cert.ReferenceIdeal.Gen Idealize.ShloMosaic Idealize.ShloMosaic.TcCoe Idealize.SL.Sem Idealize.ShloMosaic.StableHlo
open Idealize.ShloMosaic.ValueIdx
open Cert.Gcn (prod clamp)
open Cert.LibRowBias (rowBias)

/-- The message-passing stretch between a layer's product and its bias: the product `xw` [100000, 64] and the edge list
    `e` [2, 1600000] to the aggregated rows [100000, 64]. -/
def mid {F : FTy → Type} [FloatOps F] (xw : (⟨S100000x64, .f32⟩ : BufTy).Contents (Elt F)) (e : (⟨S2x1600000, .i32⟩ : BufTy).Contents (Elt F)) :
    (⟨S100000x64, .f32⟩ : BufTy).Contents (Elt F) :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 xw (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)))))))))

/-! ## The stretch in stages

The edge list gives the source and the target index arrays (each followed by the self loops). The targets give the
in-degrees (a scatter-add of ones), the degrees their inverse square roots where positive and zero elsewhere, and the
aggregation gathers the product's rows at the sources, scales them by the two ends' inverse roots and sums them at the
targets. `mid` is the aggregation of these. -/

/-- The source indices: the edge list's first row followed by the self loops. -/
def src {F : FTy → Type} [FloatOps F] (e : (⟨S2x1600000, .i32⟩ : BufTy).Contents (Elt F)) : (⟨S1700000, .i32⟩ : BufTy).Contents (Elt F) :=
  (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)

/-- The target indices: the edge list's second row followed by the self loops. -/
def dst {F : FTy → Type} [FloatOps F] (e : (⟨S2x1600000, .i32⟩ : BufTy).Contents (Elt F)) : (⟨S1700000, .i32⟩ : BufTy).Contents (Elt F) :=
  (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)

/-- The in-degrees: ones summed at the targets. -/
def deg {F : FTy → Type} [FloatOps F] (d : (⟨S1700000, .i32⟩ : BufTy).Contents (Elt F)) : (⟨S100000, .f32⟩ : BufTy).Contents (Elt F) :=
  (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))

/-- Where the degree is positive. -/
def cmpz {F : FTy → Type} [FloatOps F] (g : (⟨S100000, .f32⟩ : BufTy).Contents (Elt F)) : (⟨S100000, .i1⟩ : BufTy).Contents (Elt F) :=
  cmpf (F := F) .ogt g (broadcastInDim S100000 ![] bcast_S_S100000 (constant S_ .f32 0x00000000#32))

/-- The scalar zero. -/
def c0 {F : FTy → Type} [FloatOps F] : (⟨S_, .f32⟩ : BufTy).Contents (Elt F) := constant S_ .f32 0x00000000#32

/-- The choice between an array and a splat scalar by a mask. -/
def sel {F : FTy → Type} [FloatOps F] (a : (⟨S100000, .i1⟩ : BufTy).Contents (Elt F)) (b : (⟨S100000, .f32⟩ : BufTy).Contents (Elt F))
    (z : (⟨S_, .f32⟩ : BufTy).Contents (Elt F)) : (⟨S100000, .f32⟩ : BufTy).Contents (Elt F) :=
  select a b (broadcastInDim S100000 ![] bcast_S_S100000 (id z))

/-- The aggregation: the product's rows gathered at the sources, scaled by both ends' weights `r`, summed at the targets. -/
def agg {F : FTy → Type} [FloatOps F] (xw : (⟨S100000x64, .f32⟩ : BufTy).Contents (Elt F)) (s d : (⟨S1700000, .i32⟩ : BufTy).Contents (Elt F)) (r : (⟨S100000, .f32⟩ : BufTy).Contents (Elt F)) :
    (⟨S100000x64, .f32⟩ : BufTy).Contents (Elt F) :=
  (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 xw (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 r (broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s))) (Host.gather gather_S100000_S1700000x1_S1700000_n_0_n_n_0_1_1 r (broadcastInDim S1700000x1 ![0] bcast_S1700000_S1700000x1_0 (select (cmpi .slt d (broadcastInDim S1700000 ![] bcast_S_S1700000 (constantI S_ 32 0#32))) (addi d (broadcastInDim S1700000 ![] bcast_S_S1700000 (constantI S_ 32 100000#32))) d))))))))

/-- The stretch is the aggregation over the edge list's index arrays and the inverse roots of the in-degrees. -/
theorem mid_eq {F : FTy → Type} [FloatOps F] (xw : (⟨S100000x64, .f32⟩ : BufTy).Contents (Elt F)) (e : (⟨S2x1600000, .i32⟩ : BufTy).Contents (Elt F)) :
    mid xw e = agg xw (src e) (dst e) (sel (cmpz (deg (dst e))) (Host.rsqrt (deg (dst e))) c0) := by
  unfold mid agg src dst sel cmpz deg c0
  rfl

/-- One layer: product, message passing, bias along the rows, clamp at zero. -/
def layer {k : Nat} (h : FVec Ideal ⟨2, ![100000, k]⟩ .f32) (e : (⟨S2x1600000, .i32⟩ : BufTy).Contents (Elt Ideal))
    (w : FVec Ideal ⟨2, ![k, 64]⟩ .f32) (b : FVec Ideal ⟨1, ![64]⟩ .f32) : FVec Ideal ⟨2, ![100000, 64]⟩ .f32 :=
  clamp (rowBias (mid (F := Ideal) (prod h w) e) b)

/-- The head: product, bias, clamp, product, bias. -/
def head (h : FVec Ideal ⟨2, ![100000, 64]⟩ .f32) (w3 : FVec Ideal ⟨2, ![64, 32]⟩ .f32) (b3 : FVec Ideal ⟨1, ![32]⟩ .f32)
    (w4 : FVec Ideal ⟨2, ![32, 1]⟩ .f32) (b4 : FVec Ideal ⟨1, ![1]⟩ .f32) : FVec Ideal ⟨2, ![100000, 1]⟩ .f32 :=
  rowBias (prod (clamp (rowBias (prod h w3) b3)) w4) b4

/-- The whole network. -/
def net (x : FVec Ideal ⟨2, ![100000, 128]⟩ .f32) (e : (⟨S2x1600000, .i32⟩ : BufTy).Contents (Elt Ideal))
    (w1 : FVec Ideal ⟨2, ![128, 64]⟩ .f32) (b1 : FVec Ideal ⟨1, ![64]⟩ .f32)
    (w2 : FVec Ideal ⟨2, ![64, 64]⟩ .f32) (b2 : FVec Ideal ⟨1, ![64]⟩ .f32)
    (w3 : FVec Ideal ⟨2, ![64, 32]⟩ .f32) (b3 : FVec Ideal ⟨1, ![32]⟩ .f32)
    (w4 : FVec Ideal ⟨2, ![32, 1]⟩ .f32) (b4 : FVec Ideal ⟨1, ![1]⟩ .f32) : FVec Ideal ⟨2, ![100000, 1]⟩ .f32 :=
  head (layer (layer x e w1 b1) e w2 b2) w3 b3 w4 b4

/-! ## The host's spellings of the pieces -/

theorem dot1 (x : FVec Ideal ⟨2, ![100000, 128]⟩ .f32) (w : FVec Ideal ⟨2, ![128, 64]⟩ .f32) :
    Host.dotGeneral (F := Ideal) dot_S100000x128_S128x64_S100000x64_1_0_0_1_n_n none x w = prod x w :=
  Cert.Gcn.dotGeneral_plain dot_S100000x128_S128x64_S100000x64_1_0_0_1_n_n_wf none x w
theorem dot2 (x : FVec Ideal ⟨2, ![100000, 64]⟩ .f32) (w : FVec Ideal ⟨2, ![64, 64]⟩ .f32) :
    Host.dotGeneral (F := Ideal) dot_S100000x64_S64x64_S100000x64_1_0_0_1_n_n none x w = prod x w :=
  Cert.Gcn.dotGeneral_plain dot_S100000x64_S64x64_S100000x64_1_0_0_1_n_n_wf none x w
theorem dot3 (x : FVec Ideal ⟨2, ![100000, 64]⟩ .f32) (w : FVec Ideal ⟨2, ![64, 32]⟩ .f32) :
    Host.dotGeneral (F := Ideal) dot_S100000x64_S64x32_S100000x32_1_0_0_1_n_n none x w = prod x w :=
  Cert.Gcn.dotGeneral_plain dot_S100000x64_S64x32_S100000x32_1_0_0_1_n_n_wf none x w
theorem dot4 (x : FVec Ideal ⟨2, ![100000, 32]⟩ .f32) (w : FVec Ideal ⟨2, ![32, 1]⟩ .f32) :
    Host.dotGeneral (F := Ideal) dot_S100000x32_S32x1_S100000x1_1_0_0_1_n_n none x w = prod x w :=
  Cert.Gcn.dotGeneral_plain dot_S100000x32_S32x1_S100000x1_1_0_0_1_n_n_wf none x w

theorem bias64 (a : FVec Ideal ⟨2, ![100000, 64]⟩ .f32) (b : FVec Ideal ⟨1, ![64]⟩ .f32) :
    addf a (broadcastInDim S100000x64 ![0, 1] bcast_S1x64_S100000x64_0_1 (broadcastInDim S1x64 ![1] bcast_S64_S1x64_1 b)) = rowBias a b :=
  Cert.LibRowBias.host_rowBias a b _ _
theorem bias32 (a : FVec Ideal ⟨2, ![100000, 32]⟩ .f32) (b : FVec Ideal ⟨1, ![32]⟩ .f32) :
    addf a (broadcastInDim S100000x32 ![0, 1] bcast_S1x32_S100000x32_0_1 (broadcastInDim S1x32 ![1] bcast_S32_S1x32_1 b)) = rowBias a b :=
  Cert.LibRowBias.host_rowBias a b _ _
theorem bias1 (a : FVec Ideal ⟨2, ![100000, 1]⟩ .f32) (b : FVec Ideal ⟨1, ![1]⟩ .f32) :
    addf a (broadcastInDim S100000x1 ![0, 1] bcast_S1x1_S100000x1_0_1 (broadcastInDim S1x1 ![1] bcast_S1_S1x1_1 b)) = rowBias a b :=
  Cert.LibRowBias.host_rowBias a b _ _

theorem clamp64 (v : FVec Ideal ⟨2, ![100000, 64]⟩ .f32) :
    maximumf v (broadcastInDim S100000x64 ![] bcast_S_S100000x64 (constant (F := Ideal) S_ .f32 0x00000000#32)) = clamp v :=
  Cert.Gcn.host_clamp v _
theorem clamp32 (v : FVec Ideal ⟨2, ![100000, 32]⟩ .f32) :
    maximumf v (broadcastInDim S100000x32 ![] bcast_S_S100000x32 (constant (F := Ideal) S_ .f32 0x00000000#32)) = clamp v :=
  Cert.Gcn.host_clamp v _

/-! ## The reference's result is the network -/

/-- The reference's composed term with the two message-passing stretches named. -/
theorem res_skeleton {F : FTy → Type} [FloatOps F] (m : (ℓ : Loc nD τ sig) → Buf (Elt F) ℓ) (c : Dev nD) :
    Cert.ReferenceIdeal.ValueP.res_main_v104 (F := F) m c =
      addf (Host.dotGeneral dot_S100000x32_S32x1_S100000x1_1_0_0_1_n_n none (maximumf (addf (Host.dotGeneral dot_S100000x64_S64x32_S100000x32_1_0_0_1_n_n none (maximumf (addf (mid (Host.dotGeneral dot_S100000x64_S64x64_S100000x64_1_0_0_1_n_n none (maximumf (addf (mid (Host.dotGeneral dot_S100000x128_S128x64_S100000x64_1_0_0_1_n_n none (m ((c.tc : Thread nD τ).loc main_arg0)) (m ((c.tc : Thread nD τ).loc main_arg2))) (m ((c.tc : Thread nD τ).loc main_arg1))) (broadcastInDim S100000x64 ![0, 1] bcast_S1x64_S100000x64_0_1 (broadcastInDim S1x64 ![1] bcast_S64_S1x64_1 (m ((c.tc : Thread nD τ).loc main_arg3))))) (broadcastInDim S100000x64 ![] bcast_S_S100000x64 (constant S_ .f32 0x00000000#32))) (m ((c.tc : Thread nD τ).loc main_arg4))) (m ((c.tc : Thread nD τ).loc main_arg1))) (broadcastInDim S100000x64 ![0, 1] bcast_S1x64_S100000x64_0_1 (broadcastInDim S1x64 ![1] bcast_S64_S1x64_1 (m ((c.tc : Thread nD τ).loc main_arg5))))) (broadcastInDim S100000x64 ![] bcast_S_S100000x64 (constant S_ .f32 0x00000000#32))) (m ((c.tc : Thread nD τ).loc main_arg6))) (broadcastInDim S100000x32 ![0, 1] bcast_S1x32_S100000x32_0_1 (broadcastInDim S1x32 ![1] bcast_S32_S1x32_1 (m ((c.tc : Thread nD τ).loc main_arg7))))) (broadcastInDim S100000x32 ![] bcast_S_S100000x32 (constant S_ .f32 0x00000000#32))) (m ((c.tc : Thread nD τ).loc main_arg8))) (broadcastInDim S100000x1 ![0, 1] bcast_S1x1_S100000x1_0_1 (broadcastInDim S1x1 ![1] bcast_S1_S1x1_1 (m ((c.tc : Thread nD τ).loc main_arg9)))) := by
  unfold Cert.ReferenceIdeal.ValueP.res_main_v104 mid
  rfl

/-- The reference's result array is the network of its argument arrays. -/
theorem ref_value (m : (ℓ : Loc nD τ sig) → Buf (Elt Ideal) ℓ) (c : Dev nD) :
    Cert.ReferenceIdeal.ValueP.res_main_v104 (F := Ideal) m c =
      net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [res_skeleton]
  rw [bias1]
  rw [dot4]
  rw [clamp32]
  rw [bias32]
  rw [dot3]
  rw [clamp64]
  rw [bias64]
  rw [dot2]
  rw [clamp64]
  rw [bias64]
  rw [dot1]
  rfl

end Cert.Net

end
-- ==== Proof.KernelRun.lean ====
/-
  The idealized kernel's run with its result named: from any memory with zero counters every weakly fair execution of
  @main terminates, nothing faulting, the result buffer holds what the fold of buffer contents through the five regions
  and the two host stretches leaves there (`W11` at the result's reference), and the arguments end as launched. It is the
  frame's own argument: the regions and stretches as segments, the last thread state read against the final memory, where
  the result's buffer is one more of the unscoped buffers read.
-/
import proofs.«155897_j20770461844169_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v90) = W11 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v90 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Run

end
-- ==== Proof.Region0.lean ====
/-
  The first blocked region: the product of the node features x [100000, 128] by the weights W1 [128, 64], computed ten row
  blocks of 10000 nodes at a time. Each grid point loads its block of x and all of W1, multiplies them into a zero
  accumulator (the two casts to bf16 are the identity on the extended reals) and stores the block of the result. Entry
  (p, q) of a block is the sum over k of x (row, k) * W1 (k, q) with row = block * 10000 + p, which is entry (row, q) of
  the whole product; the ten blocks tile the rows, so the array ends holding the whole product.
-/
import proofs.«155897_j20770461844169_1_alg».proof.Proof.Gen.KernelIdeal.Frame
import proofs.«155897_j20770461844169_1_alg».proof.Proof.LibLayer
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a rank-2 rectangle, as the constant function. -/
theorem zeros_r0 : (![0, 0] : Fin 2 → Nat) = fun _ => 0 := funext fun a => by fin_cases a <;> rfl

/-- The block product at (p, q): the sum over the 128 input features. -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact Cert.LibMatmul.matmul_plain_apply dot_S10000x128_S128x64_S10000x64_1_0_0_1_n_n_wf none
    (truncf .bf16 x0 bitsLt_bf16_f32) (truncf .bf16 x1 bitsLt_bf16_f32) p q

/-- Where the three windows' blocks sit at a grid point: the rows of x and of the result move together, the weights
    stay, and there are ten row blocks. -/
theorem blocks0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some grid point's. -/
theorem rowBlock0 : ∀ b : Fin 10, ∃ t : Fin cfg0.N, win0_2.index t = ![b.val, 0] :=
  (by decide +kernel : ∀ b : Fin 10, ∃ t : Fin grid0.N, win0_2.index t = ![b.val, 0])

/-- What grid point t writes back is its row block of the whole product of the arrays the region finds. -/
theorem flushed0 (c : Dev nD) (t : Fin cfg0.N) :
    (dat0 V c).flushed 2 t = ((cfg0.win 2).blk t).view.read (Elt Ideal)
      (Cert.Gcn.prod (M := 100000) (K := 128) (N := 64) (V c main_arg0) (V c main_arg2)) := by
  show (cfg0.win 2).cut (grid0.coords t) ((dat0 V c).after 2 t) = _
  rw [after0_2]
  unfold out0_2
  rw [View.canon_unit_zero zeros_r0]
  simp only [View.ld_unit_zero (S := S10000x128) zeros_r0, View.ld_unit_zero (S := S128x64) zeros_r0]
  obtain ⟨e0, e1, e2, e3, e4, e5⟩ := blocks0 t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = Cert.Gcn.prod (M := 100000) (K := 128) (N := 64) (V c main_arg0) (V c main_arg2) (((cfg0.win 2).blk t).view.emb (ix2 p q))
  refine (pay0_apply _ _ p q).trans ?_
  unfold Cert.Gcn.prod
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [show iblk0 V c 0 t (ix2 p k) = V c main_arg0 (ix2 ((((cfg0.win 2).blk t).view.emb (ix2 p q)) 0) k) from congrArg (V c main_arg0) hx,
    show iblk0 V c 1 t (ix2 k q) = V c main_arg2 (ix2 k ((((cfg0.win 2).blk t).view.emb (ix2 p q)) 1)) from congrArg (V c main_arg2) hw]

/-- An index of the result is in grid point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The ten row blocks tile the result: row r is in block r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := rowBlock0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the whole product of the arrays the region found. -/
theorem array0 (c : Dev nD) :
    (dat0 V c).arrAt 2 cfg0.N = Cert.Gcn.prod (M := 100000) (K := 128) (N := 64) (V c main_arg0) (V c main_arg2) :=
  (dat0 V c).arrAt_eq_of_cover 2 _ (fun t _ => flushed0 V c t) cover0

end Cert.KernelIdeal.Layers

end
-- ==== Proof.LibUnitOps.lean ====
/-
  The vector unit's spellings of three whole-array functions, at any sizes over the extended reals: a matrix product
  into a zero accumulator of operands cast to bf16 (the cast is the identity) is the product; a vector [f] cast to a row
  [1, f], broadcast along the rows of [n, f] and added is the bias along the rows; the maximum with a splat zero is the
  clamp below at zero.
-/
import Idealize.ShloMosaic.PureOps.Ideal.Laws
import Idealize.ShloMosaic.Lib.ValueIdx
import Idealize.ShloMosaic.Lib.ValueLayout
import Idealize.ShloMosaic.Lib.Pipeline.Value
import proofs.«155897_j20770461844169_1_alg».proof.Proof.LibLayer
import proofs.«155897_j20770461844169_1_alg».proof.Proof.LibRowBias

noncomputable section

namespace Cert.LibUnitOps

open Idealize.ShloMosaic Idealize.ShloMosaic.ValueIdx
open Cert.Gcn (prod clamp)
open Cert.LibRowBias (rowBias)

/-- A vector [f] cast to the row [1, f] and broadcast along the rows of [n, f], read at (p, q): the vector's entry q. -/
theorem unit_row_apply {α : Type} {n f : Nat} (b : (⟨1, ![f]⟩ : Shape).Idx → α)
    (h1 : (⟨1, ![f]⟩ : Shape).ShapeCasts ⟨2, ![1, f]⟩) (h2 : (⟨2, ![1, f]⟩ : Shape).Broadcasts ⟨2, ![n, f]⟩)
    (p : Fin n) (q : Fin f) : broadcastTo ⟨2, ![n, f]⟩ (shapeCast ⟨2, ![1, f]⟩ b h1) h2 (ix2 p q) = b (ix1 q) := by
  rw [broadcastTo_1b_ab_apply, shapeCast_a_1a_apply]

/-- The vector unit's bias along the rows is `rowBias`. -/
theorem unit_rowBias {n f : Nat} (a : FVec Ideal ⟨2, ![n, f]⟩ .f32) (b : FVec Ideal ⟨1, ![f]⟩ .f32)
    (h1 : (⟨1, ![f]⟩ : Shape).ShapeCasts ⟨2, ![1, f]⟩) (h2 : (⟨2, ![1, f]⟩ : Shape).Broadcasts ⟨2, ![n, f]⟩) :
    addf a (broadcastTo ⟨2, ![n, f]⟩ (shapeCast ⟨2, ![1, f]⟩ b h1) h2) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [unit_row_apply]

/-- The vector unit's maximum with a splat zero is the clamp. -/
theorem unit_clamp {s : Shape} (v : FVec Ideal s .f32) :
    maximumf v (broadcast s (Scalar.ofBits (F := Ideal) .f32 0x00000000#32)) = clamp v := by
  funext i
  rfl

/-- The vector unit's product into a zero accumulator, its operands cast to bf16, is the product. -/
theorem unit_matmul {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32)
    (hx : FTy.bf16.bits < FTy.f32.bits) (hw : FTy.bf16.bits < FTy.f32.bits) :
    matmul (Cert.LibMatmul.plainDims M K N wf) prec (truncf .bf16 x hx) (truncf .bf16 w hw) (constant ⟨2, ![M, N]⟩ .f32 0x00000000#32)
      = prod x w := by
  funext i
  obtain ⟨p, q, rfl⟩ : ∃ (p : Fin M) (q : Fin N), i = ix2 p q := ⟨i 0, i 1, eq_ix2 i⟩
  exact Cert.LibMatmul.matmul_plain_apply wf prec (truncf .bf16 x hx) (truncf .bf16 w hw) p q

end Cert.LibUnitOps

end
-- ==== Proof.LibRowLocal.lean ====
/-
  Row-local functions of matrices over the extended reals, at any sizes: the product x w at entry i reads only row i 0 of
  x and column i 1 of w; the bias along the rows reads a at i and b at i 1; the clamp reads v at i. So two such values
  are equal as soon as the entries they read are: this is how a row block of a blocked computation is identified with
  the rows of the whole-array function. Also the two-layer head (product, bias, clamp, product, bias) and its congruence.
-/
import Idealize.ShloMosaic.PureOps.Ideal.Laws
import Idealize.ShloMosaic.Lib.ValueIdx
import proofs.«155897_j20770461844169_1_alg».proof.Proof.LibLayer
import proofs.«155897_j20770461844169_1_alg».proof.Proof.LibRowBias

noncomputable section

namespace Cert.LibRowLocal

open Idealize.ShloMosaic Idealize.ShloMosaic.ValueIdx
open Cert.Gcn (prod clamp)
open Cert.LibRowBias (rowBias)

/-- Two products agree at entries whose rows of the left operands and columns of the right operands agree. -/
theorem prod_congr {M M' K N : Nat} (x : FVec Ideal ⟨2, ![M, K]⟩ .f32) (X : FVec Ideal ⟨2, ![M', K]⟩ .f32)
    (w W : FVec Ideal ⟨2, ![K, N]⟩ .f32) (i : (⟨2, ![M, N]⟩ : Shape).Idx) (I : (⟨2, ![M', N]⟩ : Shape).Idx)
    (hx : ∀ k : Fin K, x (ix2 (n0 := M) (i 0) k) = X (ix2 (n0 := M') (I 0) k))
    (hw : ∀ k : Fin K, w (ix2 (n1 := N) k (i 1)) = W (ix2 (n1 := N) k (I 1))) :
    prod x w i = prod X W I := by
  show ∑ k : Fin K, x (ix2 (n0 := M) (i 0) k) * w (ix2 (n1 := N) k (i 1)) = ∑ k : Fin K, X (ix2 (n0 := M') (I 0) k) * W (ix2 (n1 := N) k (I 1))
  exact Finset.sum_congr rfl fun k _ => by rw [hx k, hw k]

/-- Two biased matrices agree at entries where the matrices agree and the biases agree at the column. -/
theorem rowBias_congr {n n' f : Nat} (a : FVec Ideal ⟨2, ![n, f]⟩ .f32) (A : FVec Ideal ⟨2, ![n', f]⟩ .f32)
    (b B : FVec Ideal ⟨1, ![f]⟩ .f32) (i : (⟨2, ![n, f]⟩ : Shape).Idx) (I : (⟨2, ![n', f]⟩ : Shape).Idx)
    (ha : a i = A I) (hb : b (ix1 (n := f) (i 1)) = B (ix1 (n := f) (I 1))) : rowBias a b i = rowBias A B I := by
  show a i + b (ix1 (n := f) (i 1)) = A I + B (ix1 (n := f) (I 1))
  rw [ha, hb]

/-- Two clamps agree where their operands agree. -/
theorem clamp_congr {s s' : Shape} (v : FVec Ideal s .f32) (V : FVec Ideal s' .f32) (i : s.Idx) (I : s'.Idx)
    (h : v i = V I) : clamp v i = clamp V I := by
  show max (v i) _ = max (V I) _
  rw [h]

/-- The two-layer head: product, bias along the rows, clamp at zero, product, bias along the rows. -/
def head {n a b c : Nat} (h : FVec Ideal ⟨2, ![n, a]⟩ .f32) (w3 : FVec Ideal ⟨2, ![a, b]⟩ .f32) (b3 : FVec Ideal ⟨1, ![b]⟩ .f32)
    (w4 : FVec Ideal ⟨2, ![b, c]⟩ .f32) (b4 : FVec Ideal ⟨1, ![c]⟩ .f32) : FVec Ideal ⟨2, ![n, c]⟩ .f32 :=
  rowBias (prod (clamp (rowBias (prod h w3) b3)) w4) b4

/-- Two heads over the same weights agree at entries of the same column whose rows of the inputs agree. -/
theorem head_congr {n n' a b c : Nat} (h : FVec Ideal ⟨2, ![n, a]⟩ .f32) (H : FVec Ideal ⟨2, ![n', a]⟩ .f32)
    (w3 : FVec Ideal ⟨2, ![a, b]⟩ .f32) (b3 : FVec Ideal ⟨1, ![b]⟩ .f32) (w4 : FVec Ideal ⟨2, ![b, c]⟩ .f32) (b4 : FVec Ideal ⟨1, ![c]⟩ .f32)
    (i : (⟨2, ![n, c]⟩ : Shape).Idx) (I : (⟨2, ![n', c]⟩ : Shape).Idx)
    (hh : ∀ k : Fin a, h (ix2 (n0 := n) (i 0) k) = H (ix2 (n0 := n') (I 0) k)) (h1 : i 1 = I 1) :
    head h w3 b3 w4 b4 i = head H w3 b3 w4 b4 I := by
  unfold head
  refine rowBias_congr _ _ _ _ i I ?_ (by rw [h1])
  refine prod_congr _ _ _ _ i I (fun j => ?_) (fun j => by rw [h1])
  refine clamp_congr _ _ _ _ ?_
  refine rowBias_congr _ _ _ _ _ _ ?_ rfl
  exact prod_congr _ _ _ _ _ _ hh (fun k => rfl)

end Cert.LibRowLocal

end
-- ==== Proof.Region1.lean ====
/-
  The second blocked region: the bias b1 [64] added along the rows of the aggregated features agg [100000, 64] and the
  result clamped below at zero, ten row blocks of 10000 nodes at a time. Entry (p, q) of a block is
  max (agg (row, q) + b1 q, 0) with row = block * 10000 + p; the ten blocks tile the rows, so the array ends holding
  the clamp of the bias along the rows of the whole array.
-/
import proofs.«155897_j20770461844169_1_alg».proof.Proof.Gen.KernelIdeal.Frame
import proofs.«155897_j20770461844169_1_alg».proof.Proof.LibLayer
import proofs.«155897_j20770461844169_1_alg».proof.Proof.LibRowBias
import proofs.«155897_j20770461844169_1_alg».proof.Proof.LibUnitOps
import proofs.«155897_j20770461844169_1_alg».proof.Proof.LibRowLocal
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen
open Cert.Gcn (clamp)
open Cert.LibRowBias (rowBias)

variable (V : (c : Dev nD) → (b : Ref sig .tc) → Buf (Elt Ideal) ((c : Thread nD τ).loc b))

/-- The zero offsets of a rank-2 and of a rank-1 rectangle, as the constant function. -/
theorem zeros_r1 : (![0, 0] : Fin 2 → Nat) = fun _ => 0 := funext fun a => by fin_cases a <;> rfl
theorem zeros_r1v : (![0] : Fin 1 → Nat) = fun _ => 0 := funext fun a => by fin_cases a; rfl

/-- The block's body is the clamp of the bias along the rows. -/
theorem pay1_eq (v0 : Vec Ideal S64 .f32) (v3 : Vec Ideal S10000x64 .f32) :
    k1_pay1 v0 v3 = clamp (rowBias (n := 10000) (f := 64) v3 v0) := by
  unfold k1_pay1
  show maximumf (addf (shapeCast S10000x64 v3 shapeCasts_S10000x64_S10000x64)
      (broadcastTo S10000x64 (shapeCast S1x64 v0 shapeCasts_S64_S1x64) broadcasts_S1x64_S10000x64))
    (broadcast S10000x64 (Scalar.ofBits (F := Ideal) .f32 0x00000000#32)) = _
  rw [shapeCast_self, Cert.LibUnitOps.unit_rowBias, Cert.LibUnitOps.unit_clamp]

/-- Where the three windows' blocks sit at a grid point: the rows of agg and of the result move together, the bias
    stays, and there are ten row blocks. -/
theorem blocks1 : ∀ t : Fin cfg1.N,
    win1_0.index t (0 : Fin 2) = win1_2.index t (0 : Fin 2) ∧ win1_0.index t (1 : Fin 2) = win1_2.index t (1 : Fin 2)
    ∧ win1_1.index t (0 : Fin 1) = 0
    ∧ win1_2.index t (1 : Fin 2) = 0 ∧ win1_2.index t (0 : Fin 2) ≤ 9 :=
  (by decide +kernel : ∀ t : Fin grid1.N, _)

/-- Every one of the ten row blocks is some grid point's. -/
theorem rowBlock1 : ∀ b : Fin 10, ∃ t : Fin cfg1.N, win1_2.index t = ![b.val, 0] :=
  (by decide +kernel : ∀ b : Fin 10, ∃ t : Fin grid1.N, win1_2.index t = ![b.val, 0])

/-- What grid point t writes back is its row block of the clamped, biased array the region finds. -/
theorem flushed1 (c : Dev nD) (t : Fin cfg1.N) :
    (dat1 V c).flushed 2 t = ((cfg1.win 2).blk t).view.read (Elt Ideal)
      (clamp (rowBias (n := 100000) (f := 64) (V c main_v43) (V c main_arg3))) := by
  show (cfg1.win 2).cut (grid1.coords t) ((dat1 V c).after 2 t) = _
  rw [after1_2]
  unfold out1_2
  rw [View.canon_unit_zero zeros_r1]
  simp only [View.ld_unit_zero (S := S10000x64) zeros_r1, View.ld_unit_zero (S := S64) zeros_r1v]
  obtain ⟨e0, e1, e2, e3, e4⟩ := blocks1 t
  funext j
  obtain ⟨p, q, rfl⟩ : ∃ (p : Fin 10000) (q : Fin 64), j = ix2 p q := ⟨j 0, j 1, eq_ix2 j⟩
  show k1_pay1 (iblk1 V c 1 t) (iblk1 V c 0 t) (ix2 p q)
    = clamp (rowBias (n := 100000) (f := 64) (V c main_v43) (V c main_arg3)) (((cfg1.win 2).blk t).view.emb (ix2 p q))
  rw [pay1_eq]
  have ha : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have hb : ((cfg1.win 1).blk t).view.emb (ix1 q) = ix1 ((((cfg1.win 2).blk t).view.emb (ix2 p q)) 1) := by
    funext a; apply Fin.ext
    match a with
    | ⟨0, _⟩ => show win1_1.index t (0 : Fin 1) * 64 + 1 * q.val = win1_2.index t (1 : Fin 2) * 64 + 1 * q.val; omega
  refine Cert.LibRowLocal.clamp_congr (s := ⟨2, ![10000, 64]⟩) (s' := ⟨2, ![100000, 64]⟩) _ _ _ _ ?_
  exact Cert.LibRowLocal.rowBias_congr (n := 10000) (n' := 100000) (f := 64) (iblk1 V c 0 t) (V c main_v43) (iblk1 V c 1 t) (V c main_arg3)
    (ix2 p q) (((cfg1.win 2).blk t).view.emb (ix2 p q)) (congrArg (V c main_v43) ha) (congrArg (V c main_arg3) hb)

/-- An index of the result is in grid point t's block iff each coordinate is in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v44).slice (win1_2.rect t)).set ↔ _
  rw [View.set_slice_whole, Rect.mem_set_unit]
  exact Iff.rfl

/-- The ten row blocks tile the result: row r is in block r / 10000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := rowBlock1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the result array is the clamp of the bias along the rows of the array the region found. -/
theorem array1 (c : Dev nD) :
    (dat1 V c).arrAt 2 cfg1.N = clamp (rowBias (n := 100000) (f := 64) (V c main_v43) (V c main_arg3)) :=
  (dat1 V c).arrAt_eq_of_cover 2 _ (fun t _ => flushed1 V c t) cover1

end Cert.KernelIdeal.Layers

end
-- ==== Proof.Region2.lean ====
/-
  The third blocked region: the product of the first layer's output h [100000, 64] by the weights W2 [64, 64], ten row
  blocks of 10000 nodes at a time, exactly as the first product (the block's same-shape cast and the casts to bf16 are
  the identity): the array ends holding the whole product.
-/
import proofs.«155897_j20770461844169_1_alg».proof.Proof.Gen.KernelIdeal.Frame
import proofs.«155897_j20770461844169_1_alg».proof.Proof.LibLayer
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a rank-2 rectangle, as the constant function. -/
theorem zeros_r2 : (![0, 0] : Fin 2 → Nat) = fun _ => 0 := funext fun a => by fin_cases a <;> rfl

/-- The block product at (p, q): the sum over the 64 features of the first layer. -/
theorem pay2_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  refine (Cert.LibMatmul.matmul_plain_apply dot_S10000x64_S64x64_S10000x64_1_0_0_1_n_n_wf none
    (truncf .bf16 (shapeCast S10000x64 x0 shapeCasts_S10000x64_S10000x64) bitsLt_bf16_f32) (truncf .bf16 x1 bitsLt_bf16_f32) p q).trans ?_
  rw [shapeCast_self]
  rfl

/-- Where the three windows' blocks sit at a grid point: the rows of h and of the result move together, the weights
    stay, and there are ten row blocks. -/
theorem blocks2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some grid point's. -/
theorem rowBlock2 : ∀ b : Fin 10, ∃ t : Fin cfg2.N, win2_2.index t = ![b.val, 0] :=
  (by decide +kernel : ∀ b : Fin 10, ∃ t : Fin grid2.N, win2_2.index t = ![b.val, 0])

/-- What grid point t writes back is its row block of the whole product of the arrays the region finds. -/
theorem flushed2 (c : Dev nD) (t : Fin cfg2.N) :
    (dat2 V c).flushed 2 t = ((cfg2.win 2).blk t).view.read (Elt Ideal)
      (Cert.Gcn.prod (M := 100000) (K := 64) (N := 64) (V c main_v44) (V c main_arg4)) := by
  show (cfg2.win 2).cut (grid2.coords t) ((dat2 V c).after 2 t) = _
  rw [after2_2]
  unfold out2_2
  rw [View.canon_unit_zero zeros_r2]
  simp only [View.ld_unit_zero (S := S10000x64) zeros_r2, View.ld_unit_zero (S := S64x64) zeros_r2]
  obtain ⟨e0, e1, e2, e3, e4, e5⟩ := blocks2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = Cert.Gcn.prod (M := 100000) (K := 64) (N := 64) (V c main_v44) (V c main_arg4) (((cfg2.win 2).blk t).view.emb (ix2 p q))
  refine (pay2_apply _ _ p q).trans ?_
  unfold Cert.Gcn.prod
  refine Finset.sum_congr rfl fun k _ => ?_
  have hx : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have hw : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [show iblk2 V c 0 t (ix2 p k) = V c main_v44 (ix2 ((((cfg2.win 2).blk t).view.emb (ix2 p q)) 0) k) from congrArg (V c main_v44) hx,
    show iblk2 V c 1 t (ix2 k q) = V c main_arg4 (ix2 k ((((cfg2.win 2).blk t).view.emb (ix2 p q)) 1)) from congrArg (V c main_arg4) hw]

/-- An index of the result is in grid point t's block iff each coordinate is in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- The ten row blocks tile the result: row r is in block r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := rowBlock2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the result array is the whole product of the arrays the region found. -/
theorem array2 (c : Dev nD) :
    (dat2 V c).arrAt 2 cfg2.N = Cert.Gcn.prod (M := 100000) (K := 64) (N := 64) (V c main_v44) (V c main_arg4) :=
  (dat2 V c).arrAt_eq_of_cover 2 _ (fun t _ => flushed2 V c t) cover2

end Cert.KernelIdeal.Layers

end
-- ==== Proof.Region3.lean ====
/-
  The fourth blocked region: the bias b2 [64] added along the rows of the second layer's aggregated features
  [100000, 64] and the result clamped below at zero, ten row blocks of 10000 nodes at a time, exactly as after the
  first layer: the array ends holding the clamp of the bias along the rows of the whole array.
-/
import proofs.«155897_j20770461844169_1_alg».proof.Proof.Gen.KernelIdeal.Frame
import proofs.«155897_j20770461844169_1_alg».proof.Proof.LibLayer
import proofs.«155897_j20770461844169_1_alg».proof.Proof.LibRowBias
import proofs.«155897_j20770461844169_1_alg».proof.Proof.LibUnitOps
import proofs.«155897_j20770461844169_1_alg».proof.Proof.LibRowLocal
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen
open Cert.Gcn (clamp)
open Cert.LibRowBias (rowBias)

variable (V : (c : Dev nD) → (b : Ref sig .tc) → Buf (Elt Ideal) ((c : Thread nD τ).loc b))

/-- The zero offsets of a rank-2 and of a rank-1 rectangle, as the constant function. -/
theorem zeros_r3 : (![0, 0] : Fin 2 → Nat) = fun _ => 0 := funext fun a => by fin_cases a <;> rfl
theorem zeros_r3v : (![0] : Fin 1 → Nat) = fun _ => 0 := funext fun a => by fin_cases a; rfl

/-- The block's body is the clamp of the bias along the rows. -/
theorem pay3_eq (v0 : Vec Ideal S64 .f32) (v3 : Vec Ideal S10000x64 .f32) :
    k3_pay1 v0 v3 = clamp (rowBias (n := 10000) (f := 64) v3 v0) := by
  unfold k3_pay1
  show maximumf (addf (shapeCast S10000x64 v3 shapeCasts_S10000x64_S10000x64)
      (broadcastTo S10000x64 (shapeCast S1x64 v0 shapeCasts_S64_S1x64) broadcasts_S1x64_S10000x64))
    (broadcast S10000x64 (Scalar.ofBits (F := Ideal) .f32 0x00000000#32)) = _
  rw [shapeCast_self, Cert.LibUnitOps.unit_rowBias, Cert.LibUnitOps.unit_clamp]

/-- Where the three windows' blocks sit at a grid point: the rows of agg and of the result move together, the bias
    stays, and there are ten row blocks. -/
theorem blocks3 : ∀ t : Fin cfg3.N,
    win3_0.index t (0 : Fin 2) = win3_2.index t (0 : Fin 2) ∧ win3_0.index t (1 : Fin 2) = win3_2.index t (1 : Fin 2)
    ∧ win3_1.index t (0 : Fin 1) = 0
    ∧ win3_2.index t (1 : Fin 2) = 0 ∧ win3_2.index t (0 : Fin 2) ≤ 9 :=
  (by decide +kernel : ∀ t : Fin grid3.N, _)

/-- Every one of the ten row blocks is some grid point's. -/
theorem rowBlock3 : ∀ b : Fin 10, ∃ t : Fin cfg3.N, win3_2.index t = ![b.val, 0] :=
  (by decide +kernel : ∀ b : Fin 10, ∃ t : Fin grid3.N, win3_2.index t = ![b.val, 0])

/-- What grid point t writes back is its row block of the clamped, biased array the region finds. -/
theorem flushed3 (c : Dev nD) (t : Fin cfg3.N) :
    (dat3 V c).flushed 2 t = ((cfg3.win 2).blk t).view.read (Elt Ideal)
      (clamp (rowBias (n := 100000) (f := 64) (V c main_v88) (V c main_arg5))) := by
  show (cfg3.win 2).cut (grid3.coords t) ((dat3 V c).after 2 t) = _
  rw [after3_2]
  unfold out3_2
  rw [View.canon_unit_zero zeros_r3]
  simp only [View.ld_unit_zero (S := S10000x64) zeros_r3, View.ld_unit_zero (S := S64) zeros_r3v]
  obtain ⟨e0, e1, e2, e3, e4⟩ := blocks3 t
  funext j
  obtain ⟨p, q, rfl⟩ : ∃ (p : Fin 10000) (q : Fin 64), j = ix2 p q := ⟨j 0, j 1, eq_ix2 j⟩
  show k3_pay1 (iblk3 V c 1 t) (iblk3 V c 0 t) (ix2 p q)
    = clamp (rowBias (n := 100000) (f := 64) (V c main_v88) (V c main_arg5)) (((cfg3.win 2).blk t).view.emb (ix2 p q))
  rw [pay3_eq]
  have ha : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have hb : ((cfg3.win 1).blk t).view.emb (ix1 q) = ix1 ((((cfg3.win 2).blk t).view.emb (ix2 p q)) 1) := by
    funext a; apply Fin.ext
    match a with
    | ⟨0, _⟩ => show win3_1.index t (0 : Fin 1) * 64 + 1 * q.val = win3_2.index t (1 : Fin 2) * 64 + 1 * q.val; omega
  refine Cert.LibRowLocal.clamp_congr (s := ⟨2, ![10000, 64]⟩) (s' := ⟨2, ![100000, 64]⟩) _ _ _ _ ?_
  exact Cert.LibRowLocal.rowBias_congr (n := 10000) (n' := 100000) (f := 64) (iblk3 V c 0 t) (V c main_v88) (iblk3 V c 1 t) (V c main_arg5)
    (ix2 p q) (((cfg3.win 2).blk t).view.emb (ix2 p q)) (congrArg (V c main_v88) ha) (congrArg (V c main_arg5) hb)

/-- An index of the result is in grid point t's block iff each coordinate is in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v89).slice (win3_2.rect t)).set ↔ _
  rw [View.set_slice_whole, Rect.mem_set_unit]
  exact Iff.rfl

/-- The ten row blocks tile the result: row r is in block r / 10000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := rowBlock3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the result array is the clamp of the bias along the rows of the array the region found. -/
theorem array3 (c : Dev nD) :
    (dat3 V c).arrAt 2 cfg3.N = clamp (rowBias (n := 100000) (f := 64) (V c main_v88) (V c main_arg5)) :=
  (dat3 V c).arrAt_eq_of_cover 2 _ (fun t _ => flushed3 V c t) cover3

end Cert.KernelIdeal.Layers

end
-- ==== Proof.Region4.lean ====
/-
  The fifth blocked region: the head. Each grid point loads its block of 10000 rows of the second layer's output h
  [100000, 64] and all of the weights, computes h W3 + b3 clamped below at zero, multiplies by W4 and adds b4, and stores
  its block of the [100000, 1] result. A row of the result depends on the same row of h only, so a block is the rows of
  the whole-array head; the ten blocks tile the rows.
-/
import proofs.«155897_j20770461844169_1_alg».proof.Proof.Gen.KernelIdeal.Frame
import proofs.«155897_j20770461844169_1_alg».proof.Proof.LibLayer
import proofs.«155897_j20770461844169_1_alg».proof.Proof.LibRowBias
import proofs.«155897_j20770461844169_1_alg».proof.Proof.LibUnitOps
import proofs.«155897_j20770461844169_1_alg».proof.Proof.LibRowLocal
import Idealize.ShloMosaic.Lib.Pipeline.Value
import Idealize.ShloMosaic.Lib.ValueIdx
import Idealize.ShloMosaic.PureOps.Ideal.Laws

set_option maxRecDepth 16384

noncomputable section

namespace Cert.KernelIdeal.Layers

open Idealize.ShloMosaic Idealize.ShloMosaic.TcCoe Idealize.ShloMosaic.ValueIdx Idealize.SL.Sem
open Cert.KernelIdeal Cert.KernelIdeal.Gen
open Cert.Gcn (prod clamp)
open Cert.LibRowBias (rowBias)
open Cert.LibRowLocal (head)

variable (V : (c : Dev nD) → (b : Ref sig .tc) → Buf (Elt Ideal) ((c : Thread nD τ).loc b))

/-- The zero offsets of a rank-2 and of a rank-1 rectangle, as the constant function. -/
theorem zeros_r4 : (![0, 0] : Fin 2 → Nat) = fun _ => 0 := funext fun a => by fin_cases a <;> rfl
theorem zeros_r4v : (![0] : Fin 1 → Nat) = fun _ => 0 := funext fun a => by fin_cases a; rfl

/-- The block's body is the head at block size. -/
theorem pay4_eq (v0 : Vec Ideal S10000x64 .f32) (v3 : Vec Ideal S64x32 .f32) (v6 : Vec Ideal S32 .f32)
    (v12 : Vec Ideal S32x1 .f32) (v16 : Vec Ideal S1 .f32) :
    k4_pay1 v0 v3 v6 v12 v16 = head (n := 10000) (a := 64) (b := 32) (c := 1) v0 v3 v6 v12 v16 := by
  have hA : ∀ (x : FVec Ideal ⟨2, ![10000, 64]⟩ .f32) (w : FVec Ideal ⟨2, ![64, 32]⟩ .f32),
      matmul dot_S10000x64_S64x32_S10000x32_1_0_0_1_n_n none (truncf .bf16 x bitsLt_bf16_f32) (truncf .bf16 w bitsLt_bf16_f32)
        (constant S10000x32 .f32 0x00000000#32) = prod x w :=
    fun x w => Cert.LibUnitOps.unit_matmul dot_S10000x64_S64x32_S10000x32_1_0_0_1_n_n_wf none x w _ _
  have hB : ∀ (x : FVec Ideal ⟨2, ![10000, 32]⟩ .f32) (w : FVec Ideal ⟨2, ![32, 1]⟩ .f32),
      matmul dot_S10000x32_S32x1_S10000x1_1_0_0_1_n_n none (truncf .bf16 x bitsLt_bf16_f32) (truncf .bf16 w bitsLt_bf16_f32)
        (constant S10000x1 .f32 0x00000000#32) = prod x w :=
    fun x w => Cert.LibUnitOps.unit_matmul dot_S10000x32_S32x1_S10000x1_1_0_0_1_n_n_wf none x w _ _
  unfold k4_pay1 Cert.LibRowLocal.head
  show addf (matmul dot_S10000x32_S32x1_S10000x1_1_0_0_1_n_n none
      (truncf .bf16 (maximumf (addf (matmul dot_S10000x64_S64x32_S10000x32_1_0_0_1_n_n none
            (truncf .bf16 (shapeCast S10000x64 v0 shapeCasts_S10000x64_S10000x64) bitsLt_bf16_f32) (truncf .bf16 v3 bitsLt_bf16_f32)
            (constant S10000x32 .f32 0x00000000#32))
          (broadcastTo S10000x32 (shapeCast S1x32 v6 shapeCasts_S32_S1x32) broadcasts_S1x32_S10000x32))
        (broadcast S10000x32 (Scalar.ofBits (F := Ideal) .f32 0x00000000#32))) bitsLt_bf16_f32)
      (truncf .bf16 v12 bitsLt_bf16_f32) (constant S10000x1 .f32 0x00000000#32))
    (broadcastTo S10000x1 (shapeCast S1x1 v16 shapeCasts_S1_S1x1) broadcasts_S1x1_S10000x1) = _
  rw [shapeCast_self, hA, Cert.LibUnitOps.unit_rowBias, Cert.LibUnitOps.unit_clamp, hB, Cert.LibUnitOps.unit_rowBias]

/-- Where the six windows' blocks sit at a grid point: the rows of h and of the result move together, the four weight
    arrays stay, and there are ten row blocks. -/
theorem blocks4 : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (1 : Fin 2) = 0 ∧ win4_5.index t (0 : Fin 2) ≤ 9 :=
  (by decide +kernel : ∀ t : Fin grid4.N, _)

/-- Every one of the ten row blocks is some grid point's. -/
theorem rowBlock4 : ∀ b : Fin 10, ∃ t : Fin cfg4.N, win4_5.index t = ![b.val, 0] :=
  (by decide +kernel : ∀ b : Fin 10, ∃ t : Fin grid4.N, win4_5.index t = ![b.val, 0])

/-- What grid point t writes back is its row block of the head of the arrays the region finds. -/
theorem flushed4 (c : Dev nD) (t : Fin cfg4.N) :
    (dat4 V c).flushed 5 t = ((cfg4.win 5).blk t).view.read (Elt Ideal)
      (head (n := 100000) (a := 64) (b := 32) (c := 1) (V c main_v89) (V c main_arg6) (V c main_arg7) (V c main_arg8) (V c main_arg9)) := by
  show (cfg4.win 5).cut (grid4.coords t) ((dat4 V c).after 5 t) = _
  rw [after4_5]
  unfold out4_5
  rw [View.canon_unit_zero zeros_r4]
  simp only [View.ld_unit_zero (S := S10000x64) zeros_r4, View.ld_unit_zero (S := S64x32) zeros_r4, View.ld_unit_zero (S := S32) zeros_r4v,
    View.ld_unit_zero (S := S32x1) zeros_r4, View.ld_unit_zero (S := S1) zeros_r4v]
  obtain ⟨e0, e1, e2, e3, e4, e5, e6, e7, e8, e9⟩ := blocks4 t
  have h1 : iblk4 V c 1 t = (V c main_arg6 : FVec Ideal ⟨2, ![64, 32]⟩ .f32) := by
    funext y
    obtain ⟨k, j, rfl⟩ : ∃ (k : Fin 64) (j : Fin 32), y = ix2 k j := ⟨y 0, y 1, eq_ix2 y⟩
    have he : ((cfg4.win 1).blk t).view.emb (ix2 k j) = ix2 k j := by
      funext a; apply Fin.ext
      match a with
      | ⟨0, _⟩ => show win4_1.index t (0 : Fin 2) * 64 + 1 * k.val = k.val; omega
      | ⟨1, _⟩ => show win4_1.index t (1 : Fin 2) * 32 + 1 * j.val = j.val; omega
    exact congrArg (V c main_arg6) he
  have h2 : iblk4 V c 2 t = (V c main_arg7 : FVec Ideal ⟨1, ![32]⟩ .f32) := by
    funext y
    obtain ⟨k, rfl⟩ : ∃ (k : Fin 32), y = ix1 k := ⟨y 0, eq_ix1 y⟩
    have he : ((cfg4.win 2).blk t).view.emb (ix1 k) = ix1 k := by
      funext a; apply Fin.ext
      match a with
      | ⟨0, _⟩ => show win4_2.index t (0 : Fin 1) * 32 + 1 * k.val = k.val; omega
    exact congrArg (V c main_arg7) he
  have h3 : iblk4 V c 3 t = (V c main_arg8 : FVec Ideal ⟨2, ![32, 1]⟩ .f32) := by
    funext y
    obtain ⟨k, j, rfl⟩ : ∃ (k : Fin 32) (j : Fin 1), y = ix2 k j := ⟨y 0, y 1, eq_ix2 y⟩
    have he : ((cfg4.win 3).blk t).view.emb (ix2 k j) = ix2 k j := by
      funext a; apply Fin.ext
      match a with
      | ⟨0, _⟩ => show win4_3.index t (0 : Fin 2) * 32 + 1 * k.val = k.val; omega
      | ⟨1, _⟩ => show win4_3.index t (1 : Fin 2) * 1 + 1 * j.val = j.val; omega
    exact congrArg (V c main_arg8) he
  have h4 : iblk4 V c 4 t = (V c main_arg9 : FVec Ideal ⟨1, ![1]⟩ .f32) := by
    funext y
    obtain ⟨k, rfl⟩ : ∃ (k : Fin 1), y = ix1 k := ⟨y 0, eq_ix1 y⟩
    have he : ((cfg4.win 4).blk t).view.emb (ix1 k) = ix1 k := by
      funext a; apply Fin.ext
      match a with
      | ⟨0, _⟩ => show win4_4.index t (0 : Fin 1) * 1 + 1 * k.val = k.val; omega
    exact congrArg (V c main_arg9) he
  funext jj
  obtain ⟨p, u, rfl⟩ : ∃ (p : Fin 10000) (u : Fin 1), jj = ix2 p u := ⟨jj 0, jj 1, eq_ix2 jj⟩
  show k4_pay1 (iblk4 V c 0 t) (iblk4 V c 1 t) (iblk4 V c 2 t) (iblk4 V c 3 t) (iblk4 V c 4 t) (ix2 p u)
    = head (n := 100000) (a := 64) (b := 32) (c := 1) (V c main_v89) (V c main_arg6) (V c main_arg7) (V c main_arg8) (V c main_arg9)
        (((cfg4.win 5).blk t).view.emb (ix2 p u))
  rw [pay4_eq, h1, h2, h3, h4]
  refine Cert.LibRowLocal.head_congr (n := 10000) (n' := 100000) (a := 64) (b := 32) (c := 1) (iblk4 V c 0 t) (V c main_v89) _ _ _ _
    (ix2 p u) (((cfg4.win 5).blk t).view.emb (ix2 p u)) (fun k => ?_) ?_
  · have hx : ((cfg4.win 0).blk t).view.emb (ix2 p k) = ix2 ((((cfg4.win 5).blk t).view.emb (ix2 p u)) 0) k := by
      funext a; apply Fin.ext
      match a with
      | ⟨0, _⟩ => show win4_0.index t (0 : Fin 2) * 10000 + 1 * p.val = win4_5.index t (0 : Fin 2) * 10000 + 1 * p.val; omega
      | ⟨1, _⟩ => show win4_0.index t (1 : Fin 2) * 64 + 1 * k.val = k.val; omega
    exact congrArg (V c main_v89) hx
  · apply Fin.ext
    show u.val = win4_5.index t (1 : Fin 2) * 1 + 1 * u.val
    omega

/-- An index of the result is in grid point t's block iff each coordinate is in the block's range. -/
theorem mem_blk4 (t : Fin cfg4.N) (i : S100000x1.Idx) :
    i ∈ ((cfg4.win 5).blk t).view.set ↔ ∀ a : Fin 2, win4_5.index t a * S10000x1.size a ≤ (i a).val ∧ (i a).val < win4_5.index t a * S10000x1.size a + S10000x1.size a := by
  show i ∈ ((View.whole main_v90).slice (win4_5.rect t)).set ↔ _
  rw [View.set_slice_whole, Rect.mem_set_unit]
  exact Iff.rfl

/-- The ten row blocks tile the result: row r is in block r / 10000. -/
theorem cover4 (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  obtain ⟨t, ht⟩ := rowBlock4 ⟨(i 0).val / 10000, by omega⟩
  have q0 : win4_5.index t (0 : Fin 2) = (i 0).val / 10000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 1 ≤ (i 1).val ∧ (i 1).val < win4_5.index t (1 : Fin 2) * 1 + 1; omega

/-- After the region the result array is the head of the arrays the region found. -/
theorem array4 (c : Dev nD) :
    (dat4 V c).arrAt 5 cfg4.N
      = head (n := 100000) (a := 64) (b := 32) (c := 1) (V c main_v89) (V c main_arg6) (V c main_arg7) (V c main_arg8) (V c main_arg9) :=
  (dat4 V c).arrAt_eq_of_cover 5 _ (fun t _ => flushed4 V c t) cover4

end Cert.KernelIdeal.Layers

end
-- ==== Proof.LibConcat.lean ====
/-
  A join of two pieces along an axis depends on the pieces only through their values: two joins of pieces of the same
  shapes are equal when the pieces are. Stated as a congruence so that a rewriting pass can reach the pieces, which sit
  inside dependent pairs (a shape and an array of that shape).
-/
import Idealize.ShloMosaic.PureOps.Ideal

namespace Cert.LibConcat

open Idealize.ShloMosaic

/-- Two joins of two pieces along an axis are equal when the pieces are. -/
theorem concat2_congr {α : Type} (t : Shape) (ax : Fin t.rank) (S1 S2 : Shape) (a a' : S1.Idx → α) (b b' : S2.Idx → α)
    (h : Shape.Concatenates [S1, S2] t ax) (ha : a = a') (hb : b = b') :
    concatenate t ax [⟨S1, a⟩, ⟨S2, b⟩] h = concatenate t ax [⟨S1, a'⟩, ⟨S2, b'⟩] h := by
  subst ha; subst hb; rfl

end Cert.LibConcat
-- ==== Proof.StretchA.lean ====
/-
  The first stretch of host operations of the idealized kernel, read as one function: from any buffer contents, after
  the stretch's operations the aggregated rows' buffer holds the message-passing function `mid` of the first product
  and the edge list as those contents hold them. The stretch is three lists of operations: the first leaves the source
  and target index arrays, the mask of positive in-degrees, the inverse roots and a scalar zero; the second chooses
  between the inverse roots and zero by the mask; the third aggregates. Each list is evaluated with its operands left as
  buffer reads, and the three results are composed. A buffer's stated type is read off the program's table, which makes
  the transports along those types the identity.
-/
import proofs.«155897_j20770461844169_1_alg».proof.Proof.Gen.KernelIdeal.Launch
import proofs.«155897_j20770461844169_1_alg».proof.Proof.RefNet
import proofs.«155897_j20770461844169_1_alg».proof.Proof.LibConcat
import Idealize.ShloMosaic.Lib.StableHlo.Run

set_option maxRecDepth 16384
set_option pp.maxSteps 400

noncomputable section

namespace Cert.KernelIdeal.StretchA

open Idealize.ShloMosaic Idealize.ShloMosaic.TcCoe Idealize.SL.Sem Idealize.ShloMosaic.StableHlo
open Cert.KernelIdeal Cert.KernelIdeal.Gen

attribute [local congr] Cert.LibConcat.concat2_congr

/-! The types of the buffers the stretch reshapes into or passes through the outlined choice, by the program's table. -/
theorem ty_main_v2 : (main_v2 : Ref sig .tc).ty = (⟨S1600000, .i32⟩ : BufTy) := rfl
theorem ty_main_v4 : (main_v4 : Ref sig .tc).ty = (⟨S1600000, .i32⟩ : BufTy) := rfl
theorem ty_main_v13 : (main_v13 : Ref sig .tc).ty = (⟨S100000, .i1⟩ : BufTy) := rfl
theorem ty_main_v14 : (main_v14 : Ref sig .tc).ty = (⟨S100000, .f32⟩ : BufTy) := rfl
theorem ty_main_v15 : (main_v15 : Ref sig .tc).ty = (⟨S100000, .f32⟩ : BufTy) := rfl
theorem ty_main_cst_2 : (main_cst_2 : Ref sig .tc).ty = (⟨S_, .f32⟩ : BufTy) := rfl
theorem ty_main_call0_v0 : (main_call0_v0 : Ref sig .tc).ty = (⟨S_, .f32⟩ : BufTy) := rfl
theorem ty_main_call0_v1 : (main_call0_v1 : Ref sig .tc).ty = (⟨S100000, .f32⟩ : BufTy) := rfl

/-! ## The first list -/

theorem s1_src (W : Valuation τ sig (Elt Ideal)) :
    StableHlo.after hostOps1 W (Proc.devRef .tc main_v6) = Cert.Net.src (F := Ideal) (W (Proc.devRef .tc main_arg1)) := by
  simp only [hostOps1]
  after_results_simp
  try simp only [ty_main_v2, ty_main_v4]
  generalize W (Proc.devRef .tc main_arg1) = e
  unfold Cert.Net.src
  rfl

theorem s1_dst (W : Valuation τ sig (Elt Ideal)) :
    StableHlo.after hostOps1 W (Proc.devRef .tc main_v7) = Cert.Net.dst (F := Ideal) (W (Proc.devRef .tc main_arg1)) := by
  simp only [hostOps1]
  after_results_simp
  try simp only [ty_main_v2, ty_main_v4]
  generalize W (Proc.devRef .tc main_arg1) = e
  unfold Cert.Net.dst
  rfl

theorem s1_cmp (W : Valuation τ sig (Elt Ideal)) :
    StableHlo.after hostOps1 W (Proc.devRef .tc main_v13)
      = Cert.Net.cmpz (F := Ideal) (Cert.Net.deg (F := Ideal) (Cert.Net.dst (F := Ideal) (W (Proc.devRef .tc main_arg1)))) := by
  simp only [hostOps1]
  after_results_simp
  try simp only [ty_main_v2, ty_main_v4]
  generalize W (Proc.devRef .tc main_arg1) = e
  unfold Cert.Net.cmpz Cert.Net.deg Cert.Net.dst
  rfl

theorem s1_rsq (W : Valuation τ sig (Elt Ideal)) :
    StableHlo.after hostOps1 W (Proc.devRef .tc main_v14)
      = Host.rsqrt (F := Ideal) (φ := .f32) (Cert.Net.deg (F := Ideal) (Cert.Net.dst (F := Ideal) (W (Proc.devRef .tc main_arg1)))) := by
  simp only [hostOps1]
  after_results_simp
  try simp only [ty_main_v2, ty_main_v4]
  generalize W (Proc.devRef .tc main_arg1) = e
  unfold Cert.Net.deg Cert.Net.dst
  rfl

theorem s1_c0 (W : Valuation τ sig (Elt Ideal)) :
    StableHlo.after hostOps1 W (Proc.devRef .tc main_cst_2) = Cert.Net.c0 (F := Ideal) := by
  simp only [hostOps1]
  after_results_simp
  try rfl

theorem s1_keep_prod (W : Valuation τ sig (Elt Ideal)) : StableHlo.after hostOps1 W (Proc.devRef .tc main_v0) = W (Proc.devRef .tc main_v0) := by
  simp only [hostOps1]
  after_results_simp

/-! ## The second list -/

theorem s2_dinv (W : Valuation τ sig (Elt Ideal)) :
    StableHlo.after hostOps1_1 W (Proc.devRef .tc main_v15)
      = Cert.Net.sel (F := Ideal) (W (Proc.devRef .tc main_v13)) (W (Proc.devRef .tc main_v14)) (W (Proc.devRef .tc main_cst_2)) := by
  simp only [hostOps1_1]
  after_results_simp
  try simp only [ty_main_v13, ty_main_v14, ty_main_v15, ty_main_cst_2, ty_main_call0_v0, ty_main_call0_v1, TRef.toBuf, TRef.ofBuf, cast_eq]
  generalize W (Proc.devRef .tc main_v13) = a
  generalize W (Proc.devRef .tc main_v14) = b
  generalize W (Proc.devRef .tc main_cst_2) = z
  unfold Cert.Net.sel
  rfl

theorem s2_keep_prod (W : Valuation τ sig (Elt Ideal)) : StableHlo.after hostOps1_1 W (Proc.devRef .tc main_v0) = W (Proc.devRef .tc main_v0) := by
  simp only [hostOps1_1]
  after_results_simp

theorem s2_keep_src (W : Valuation τ sig (Elt Ideal)) : StableHlo.after hostOps1_1 W (Proc.devRef .tc main_v6) = W (Proc.devRef .tc main_v6) := by
  simp only [hostOps1_1]
  after_results_simp

theorem s2_keep_dst (W : Valuation τ sig (Elt Ideal)) : StableHlo.after hostOps1_1 W (Proc.devRef .tc main_v7) = W (Proc.devRef .tc main_v7) := by
  simp only [hostOps1_1]
  after_results_simp

/-! ## The third list -/

theorem s3_out (W : Valuation τ sig (Elt Ideal)) :
    StableHlo.after hostOps1_2 W (Proc.devRef .tc main_v43)
      = Cert.Net.agg (F := Ideal) (W (Proc.devRef .tc main_v0)) (W (Proc.devRef .tc main_v6)) (W (Proc.devRef .tc main_v7)) (W (Proc.devRef .tc main_v15)) := by
  simp only [hostOps1_2]
  after_results_simp
  generalize W (Proc.devRef .tc main_v0) = xw
  generalize W (Proc.devRef .tc main_v6) = s
  generalize W (Proc.devRef .tc main_v7) = d
  generalize W (Proc.devRef .tc main_v15) = r
  unfold Cert.Net.agg
  rfl

/-! ## The stretch -/

theorem stretch (W : Valuation τ sig (Elt Ideal)) :
    StableHlo.after hostOps1_2 (StableHlo.after hostOps1_1 (StableHlo.after hostOps1 W)) (Proc.devRef .tc main_v43)
      = Cert.Net.mid (F := Ideal) (W (Proc.devRef .tc main_v0)) (W (Proc.devRef .tc main_arg1)) := by
  rw [s3_out, s2_dinv, s2_keep_prod, s2_keep_src, s2_keep_dst, s1_keep_prod, s1_src, s1_dst, s1_cmp, s1_rsq, s1_c0, Cert.Net.mid_eq]

end Cert.KernelIdeal.StretchA

end
-- ==== Proof.StretchB.lean ====
/-
  The second stretch of host operations of the idealized kernel, read as one function: from any buffer contents, after
  the stretch's operations the aggregated rows' buffer holds the message-passing function `mid` of the second product
  and the edge list as those contents hold them. The stretch is three lists of operations: the first leaves the source
  and target index arrays, the mask of positive in-degrees, the inverse roots and a scalar zero; the second chooses
  between the inverse roots and zero by the mask; the third aggregates. Each list is evaluated with its operands left as
  buffer reads, and the three results are composed. A buffer's stated type is read off the program's table, which makes
  the transports along those types the identity.
-/
import proofs.«155897_j20770461844169_1_alg».proof.Proof.Gen.KernelIdeal.Launch
import proofs.«155897_j20770461844169_1_alg».proof.Proof.RefNet
import proofs.«155897_j20770461844169_1_alg».proof.Proof.LibConcat
import Idealize.ShloMosaic.Lib.StableHlo.Run

set_option maxRecDepth 16384
set_option pp.maxSteps 400

noncomputable section

namespace Cert.KernelIdeal.StretchB

open Idealize.ShloMosaic Idealize.ShloMosaic.TcCoe Idealize.SL.Sem Idealize.ShloMosaic.StableHlo
open Cert.KernelIdeal Cert.KernelIdeal.Gen

attribute [local congr] Cert.LibConcat.concat2_congr

/-! The types of the buffers the stretch reshapes into or passes through the outlined choice, by the program's table. -/
theorem ty_main_v47 : (main_v47 : Ref sig .tc).ty = (⟨S1600000, .i32⟩ : BufTy) := rfl
theorem ty_main_v49 : (main_v49 : Ref sig .tc).ty = (⟨S1600000, .i32⟩ : BufTy) := rfl
theorem ty_main_v58 : (main_v58 : Ref sig .tc).ty = (⟨S100000, .i1⟩ : BufTy) := rfl
theorem ty_main_v59 : (main_v59 : Ref sig .tc).ty = (⟨S100000, .f32⟩ : BufTy) := rfl
theorem ty_main_v60 : (main_v60 : Ref sig .tc).ty = (⟨S100000, .f32⟩ : BufTy) := rfl
theorem ty_main_cst_12 : (main_cst_12 : Ref sig .tc).ty = (⟨S_, .f32⟩ : BufTy) := rfl
theorem ty_main_call1_v0 : (main_call1_v0 : Ref sig .tc).ty = (⟨S_, .f32⟩ : BufTy) := rfl
theorem ty_main_call1_v1 : (main_call1_v1 : Ref sig .tc).ty = (⟨S100000, .f32⟩ : BufTy) := rfl

/-! ## The first list -/

theorem s1_src (W : Valuation τ sig (Elt Ideal)) :
    StableHlo.after hostOps3 W (Proc.devRef .tc main_v51) = Cert.Net.src (F := Ideal) (W (Proc.devRef .tc main_arg1)) := by
  simp only [hostOps3]
  after_results_simp
  try simp only [ty_main_v47, ty_main_v49]
  generalize W (Proc.devRef .tc main_arg1) = e
  unfold Cert.Net.src
  rfl

theorem s1_dst (W : Valuation τ sig (Elt Ideal)) :
    StableHlo.after hostOps3 W (Proc.devRef .tc main_v52) = Cert.Net.dst (F := Ideal) (W (Proc.devRef .tc main_arg1)) := by
  simp only [hostOps3]
  after_results_simp
  try simp only [ty_main_v47, ty_main_v49]
  generalize W (Proc.devRef .tc main_arg1) = e
  unfold Cert.Net.dst
  rfl

theorem s1_cmp (W : Valuation τ sig (Elt Ideal)) :
    StableHlo.after hostOps3 W (Proc.devRef .tc main_v58)
      = Cert.Net.cmpz (F := Ideal) (Cert.Net.deg (F := Ideal) (Cert.Net.dst (F := Ideal) (W (Proc.devRef .tc main_arg1)))) := by
  simp only [hostOps3]
  after_results_simp
  try simp only [ty_main_v47, ty_main_v49]
  generalize W (Proc.devRef .tc main_arg1) = e
  unfold Cert.Net.cmpz Cert.Net.deg Cert.Net.dst
  rfl

theorem s1_rsq (W : Valuation τ sig (Elt Ideal)) :
    StableHlo.after hostOps3 W (Proc.devRef .tc main_v59)
      = Host.rsqrt (F := Ideal) (φ := .f32) (Cert.Net.deg (F := Ideal) (Cert.Net.dst (F := Ideal) (W (Proc.devRef .tc main_arg1)))) := by
  simp only [hostOps3]
  after_results_simp
  try simp only [ty_main_v47, ty_main_v49]
  generalize W (Proc.devRef .tc main_arg1) = e
  unfold Cert.Net.deg Cert.Net.dst
  rfl

theorem s1_c0 (W : Valuation τ sig (Elt Ideal)) :
    StableHlo.after hostOps3 W (Proc.devRef .tc main_cst_12) = Cert.Net.c0 (F := Ideal) := by
  simp only [hostOps3]
  after_results_simp
  try rfl

theorem s1_keep_prod (W : Valuation τ sig (Elt Ideal)) : StableHlo.after hostOps3 W (Proc.devRef .tc main_v45) = W (Proc.devRef .tc main_v45) := by
  simp only [hostOps3]
  after_results_simp

/-! ## The second list -/

theorem s2_dinv (W : Valuation τ sig (Elt Ideal)) :
    StableHlo.after hostOps3_1 W (Proc.devRef .tc main_v60)
      = Cert.Net.sel (F := Ideal) (W (Proc.devRef .tc main_v58)) (W (Proc.devRef .tc main_v59)) (W (Proc.devRef .tc main_cst_12)) := by
  simp only [hostOps3_1]
  after_results_simp
  try simp only [ty_main_v58, ty_main_v59, ty_main_v60, ty_main_cst_12, ty_main_call1_v0, ty_main_call1_v1, TRef.toBuf, TRef.ofBuf, cast_eq]
  generalize W (Proc.devRef .tc main_v58) = a
  generalize W (Proc.devRef .tc main_v59) = b
  generalize W (Proc.devRef .tc main_cst_12) = z
  unfold Cert.Net.sel
  rfl

theorem s2_keep_prod (W : Valuation τ sig (Elt Ideal)) : StableHlo.after hostOps3_1 W (Proc.devRef .tc main_v45) = W (Proc.devRef .tc main_v45) := by
  simp only [hostOps3_1]
  after_results_simp

theorem s2_keep_src (W : Valuation τ sig (Elt Ideal)) : StableHlo.after hostOps3_1 W (Proc.devRef .tc main_v51) = W (Proc.devRef .tc main_v51) := by
  simp only [hostOps3_1]
  after_results_simp

theorem s2_keep_dst (W : Valuation τ sig (Elt Ideal)) : StableHlo.after hostOps3_1 W (Proc.devRef .tc main_v52) = W (Proc.devRef .tc main_v52) := by
  simp only [hostOps3_1]
  after_results_simp

/-! ## The third list -/

theorem s3_out (W : Valuation τ sig (Elt Ideal)) :
    StableHlo.after hostOps3_2 W (Proc.devRef .tc main_v88)
      = Cert.Net.agg (F := Ideal) (W (Proc.devRef .tc main_v45)) (W (Proc.devRef .tc main_v51)) (W (Proc.devRef .tc main_v52)) (W (Proc.devRef .tc main_v60)) := by
  simp only [hostOps3_2]
  after_results_simp
  generalize W (Proc.devRef .tc main_v45) = xw
  generalize W (Proc.devRef .tc main_v51) = s
  generalize W (Proc.devRef .tc main_v52) = d
  generalize W (Proc.devRef .tc main_v60) = r
  unfold Cert.Net.agg
  rfl

/-! ## The stretch -/

theorem stretch (W : Valuation τ sig (Elt Ideal)) :
    StableHlo.after hostOps3_2 (StableHlo.after hostOps3_1 (StableHlo.after hostOps3 W)) (Proc.devRef .tc main_v88)
      = Cert.Net.mid (F := Ideal) (W (Proc.devRef .tc main_v45)) (W (Proc.devRef .tc main_arg1)) := by
  rw [s3_out, s2_dinv, s2_keep_prod, s2_keep_src, s2_keep_dst, s1_keep_prod, s1_src, s1_dst, s1_cmp, s1_rsq, s1_c0, Cert.Net.mid_eq]

end Cert.KernelIdeal.StretchB

end
-- ==== Proof.Chain.lean ====
/-
  The idealized kernel's result, as a function of the ten argument arrays over the extended reals.

  The program is five blocked regions among two stretches of host operations. The buffer contents at each boundary are a fold
  from the launch memory: a region leaves its result array at what its ten row blocks wrote (the whole-array product,
  the clamp of the bias along the rows, the head), a host stretch leaves the message-passing function of the product
  before it and the edge list, and nothing ever writes an argument. Read backwards from the result buffer, the fold is
  the network: two layers (product, message passing, bias, clamp) and the head.
-/
import proofs.«155897_j20770461844169_1_alg».proof.Proof.Gen.KernelIdeal.Frame
import proofs.«155897_j20770461844169_1_alg».proof.Proof.Region0
import proofs.«155897_j20770461844169_1_alg».proof.Proof.Region1
import proofs.«155897_j20770461844169_1_alg».proof.Proof.Region2
import proofs.«155897_j20770461844169_1_alg».proof.Proof.Region3
import proofs.«155897_j20770461844169_1_alg».proof.Proof.Region4
import proofs.«155897_j20770461844169_1_alg».proof.Proof.RefNet
import proofs.«155897_j20770461844169_1_alg».proof.Proof.StretchA
import proofs.«155897_j20770461844169_1_alg».proof.Proof.StretchB
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Layers
open Cert.Gcn (prod clamp)
open Cert.LibRowBias (rowBias)
open Cert.LibRowLocal (head)

variable (m : (ℓ : Loc nD τ sig) → Buf (Elt Ideal) ℓ) (ρ : Dev nD → PrngReg)

/-! ## No host operation writes an argument -/

theorem W4_keeps_main_arg1 (c : Dev nD) : W4 m ρ c (Proc.devRef .tc main_arg1) = W1 m ρ c (Proc.devRef .tc main_arg1) := by
  show StableHlo.after hostOps1_2 (StableHlo.after hostOps1_1 (StableHlo.after hostOps1 (W1 m ρ c))) (Proc.devRef .tc main_arg1) = _
  simp only [hostOps1_2, hostOps1_1, hostOps1]
  after_results_simp

theorem W4_keeps_main_arg3 (c : Dev nD) : W4 m ρ c (Proc.devRef .tc main_arg3) = W1 m ρ c (Proc.devRef .tc main_arg3) := by
  show StableHlo.after hostOps1_2 (StableHlo.after hostOps1_1 (StableHlo.after hostOps1 (W1 m ρ c))) (Proc.devRef .tc main_arg3) = _
  simp only [hostOps1_2, hostOps1_1, hostOps1]
  after_results_simp

theorem W4_keeps_main_arg4 (c : Dev nD) : W4 m ρ c (Proc.devRef .tc main_arg4) = W1 m ρ c (Proc.devRef .tc main_arg4) := by
  show StableHlo.after hostOps1_2 (StableHlo.after hostOps1_1 (StableHlo.after hostOps1 (W1 m ρ c))) (Proc.devRef .tc main_arg4) = _
  simp only [hostOps1_2, hostOps1_1, hostOps1]
  after_results_simp

theorem W4_keeps_main_arg5 (c : Dev nD) : W4 m ρ c (Proc.devRef .tc main_arg5) = W1 m ρ c (Proc.devRef .tc main_arg5) := by
  show StableHlo.after hostOps1_2 (StableHlo.after hostOps1_1 (StableHlo.after hostOps1 (W1 m ρ c))) (Proc.devRef .tc main_arg5) = _
  simp only [hostOps1_2, hostOps1_1, hostOps1]
  after_results_simp

theorem W4_keeps_main_arg6 (c : Dev nD) : W4 m ρ c (Proc.devRef .tc main_arg6) = W1 m ρ c (Proc.devRef .tc main_arg6) := by
  show StableHlo.after hostOps1_2 (StableHlo.after hostOps1_1 (StableHlo.after hostOps1 (W1 m ρ c))) (Proc.devRef .tc main_arg6) = _
  simp only [hostOps1_2, hostOps1_1, hostOps1]
  after_results_simp

theorem W4_keeps_main_arg7 (c : Dev nD) : W4 m ρ c (Proc.devRef .tc main_arg7) = W1 m ρ c (Proc.devRef .tc main_arg7) := by
  show StableHlo.after hostOps1_2 (StableHlo.after hostOps1_1 (StableHlo.after hostOps1 (W1 m ρ c))) (Proc.devRef .tc main_arg7) = _
  simp only [hostOps1_2, hostOps1_1, hostOps1]
  after_results_simp

theorem W4_keeps_main_arg8 (c : Dev nD) : W4 m ρ c (Proc.devRef .tc main_arg8) = W1 m ρ c (Proc.devRef .tc main_arg8) := by
  show StableHlo.after hostOps1_2 (StableHlo.after hostOps1_1 (StableHlo.after hostOps1 (W1 m ρ c))) (Proc.devRef .tc main_arg8) = _
  simp only [hostOps1_2, hostOps1_1, hostOps1]
  after_results_simp

theorem W4_keeps_main_arg9 (c : Dev nD) : W4 m ρ c (Proc.devRef .tc main_arg9) = W1 m ρ c (Proc.devRef .tc main_arg9) := by
  show StableHlo.after hostOps1_2 (StableHlo.after hostOps1_1 (StableHlo.after hostOps1 (W1 m ρ c))) (Proc.devRef .tc main_arg9) = _
  simp only [hostOps1_2, hostOps1_1, hostOps1]
  after_results_simp

theorem W9_keeps_main_arg1 (c : Dev nD) : W9 m ρ c (Proc.devRef .tc main_arg1) = W6 m ρ c (Proc.devRef .tc main_arg1) := by
  show StableHlo.after hostOps3_2 (StableHlo.after hostOps3_1 (StableHlo.after hostOps3 (W6 m ρ c))) (Proc.devRef .tc main_arg1) = _
  simp only [hostOps3_2, hostOps3_1, hostOps3]
  after_results_simp

theorem W9_keeps_main_arg5 (c : Dev nD) : W9 m ρ c (Proc.devRef .tc main_arg5) = W6 m ρ c (Proc.devRef .tc main_arg5) := by
  show StableHlo.after hostOps3_2 (StableHlo.after hostOps3_1 (StableHlo.after hostOps3 (W6 m ρ c))) (Proc.devRef .tc main_arg5) = _
  simp only [hostOps3_2, hostOps3_1, hostOps3]
  after_results_simp

theorem W9_keeps_main_arg6 (c : Dev nD) : W9 m ρ c (Proc.devRef .tc main_arg6) = W6 m ρ c (Proc.devRef .tc main_arg6) := by
  show StableHlo.after hostOps3_2 (StableHlo.after hostOps3_1 (StableHlo.after hostOps3 (W6 m ρ c))) (Proc.devRef .tc main_arg6) = _
  simp only [hostOps3_2, hostOps3_1, hostOps3]
  after_results_simp

theorem W9_keeps_main_arg7 (c : Dev nD) : W9 m ρ c (Proc.devRef .tc main_arg7) = W6 m ρ c (Proc.devRef .tc main_arg7) := by
  show StableHlo.after hostOps3_2 (StableHlo.after hostOps3_1 (StableHlo.after hostOps3 (W6 m ρ c))) (Proc.devRef .tc main_arg7) = _
  simp only [hostOps3_2, hostOps3_1, hostOps3]
  after_results_simp

theorem W9_keeps_main_arg8 (c : Dev nD) : W9 m ρ c (Proc.devRef .tc main_arg8) = W6 m ρ c (Proc.devRef .tc main_arg8) := by
  show StableHlo.after hostOps3_2 (StableHlo.after hostOps3_1 (StableHlo.after hostOps3 (W6 m ρ c))) (Proc.devRef .tc main_arg8) = _
  simp only [hostOps3_2, hostOps3_1, hostOps3]
  after_results_simp

theorem W9_keeps_main_arg9 (c : Dev nD) : W9 m ρ c (Proc.devRef .tc main_arg9) = W6 m ρ c (Proc.devRef .tc main_arg9) := by
  show StableHlo.after hostOps3_2 (StableHlo.after hostOps3_1 (StableHlo.after hostOps3 (W6 m ρ c))) (Proc.devRef .tc main_arg9) = _
  simp only [hostOps3_2, hostOps3_1, hostOps3]
  after_results_simp

/-! ## The arguments as each region finds them -/

theorem V1_arg1 (c : Dev nD) : V1 m ρ c main_arg1 = m ((c : Thread nD τ).loc main_arg1) :=
  (W1_of_ne m ρ c main_arg1 (by decide)).trans rfl
theorem V4_arg3 (c : Dev nD) : V4 m ρ c main_arg3 = m ((c : Thread nD τ).loc main_arg3) :=
  (W4_keeps_main_arg3 m ρ c).trans ((W1_of_ne m ρ c main_arg3 (by decide)).trans rfl)
theorem V5_arg4 (c : Dev nD) : V5 m ρ c main_arg4 = m ((c : Thread nD τ).loc main_arg4) :=
  (W5_of_ne m ρ c main_arg4 (by decide)).trans ((W4_keeps_main_arg4 m ρ c).trans ((W1_of_ne m ρ c main_arg4 (by decide)).trans rfl))
theorem V6_arg1 (c : Dev nD) : V6 m ρ c main_arg1 = m ((c : Thread nD τ).loc main_arg1) :=
  (W6_of_ne m ρ c main_arg1 (by decide)).trans ((W5_of_ne m ρ c main_arg1 (by decide)).trans
    ((W4_keeps_main_arg1 m ρ c).trans ((W1_of_ne m ρ c main_arg1 (by decide)).trans rfl)))
/-- An argument no region before the fourth reads through a window: unchanged up to the second stretch's end. -/
theorem W9_arg (r : Ref sig .tc) (c : Dev nD)
    (h9 : W9 m ρ c (Proc.devRef .tc r) = W6 m ρ c (Proc.devRef .tc r)) (h6 : ∀ w, Pipeline.arrRef spec2 w ≠ r)
    (h5 : ∀ w, Pipeline.arrRef spec1 w ≠ r) (h4 : W4 m ρ c (Proc.devRef .tc r) = W1 m ρ c (Proc.devRef .tc r))
    (h1 : ∀ w, Pipeline.arrRef spec0 w ≠ r) : W9 m ρ c (Proc.devRef .tc r) = m ((c : Thread nD τ).loc r) :=
  h9.trans ((W6_of_ne m ρ c r h6).trans ((W5_of_ne m ρ c r h5).trans (h4.trans ((W1_of_ne m ρ c r h1).trans rfl))))
theorem V9_arg5 (c : Dev nD) : V9 m ρ c main_arg5 = m ((c : Thread nD τ).loc main_arg5) :=
  W9_arg m ρ main_arg5 c (W9_keeps_main_arg5 m ρ c) (by decide) (by decide) (W4_keeps_main_arg5 m ρ c) (by decide)
theorem V10_arg6 (c : Dev nD) : V10 m ρ c main_arg6 = m ((c : Thread nD τ).loc main_arg6) :=
  (W10_of_ne m ρ c main_arg6 (by decide)).trans
    (W9_arg m ρ main_arg6 c (W9_keeps_main_arg6 m ρ c) (by decide) (by decide) (W4_keeps_main_arg6 m ρ c) (by decide))
theorem V10_arg7 (c : Dev nD) : V10 m ρ c main_arg7 = m ((c : Thread nD τ).loc main_arg7) :=
  (W10_of_ne m ρ c main_arg7 (by decide)).trans
    (W9_arg m ρ main_arg7 c (W9_keeps_main_arg7 m ρ c) (by decide) (by decide) (W4_keeps_main_arg7 m ρ c) (by decide))
theorem V10_arg8 (c : Dev nD) : V10 m ρ c main_arg8 = m ((c : Thread nD τ).loc main_arg8) :=
  (W10_of_ne m ρ c main_arg8 (by decide)).trans
    (W9_arg m ρ main_arg8 c (W9_keeps_main_arg8 m ρ c) (by decide) (by decide) (W4_keeps_main_arg8 m ρ c) (by decide))
theorem V10_arg9 (c : Dev nD) : V10 m ρ c main_arg9 = m ((c : Thread nD τ).loc main_arg9) :=
  (W10_of_ne m ρ c main_arg9 (by decide)).trans
    (W9_arg m ρ main_arg9 c (W9_keeps_main_arg9 m ρ c) (by decide) (by decide) (W4_keeps_main_arg9 m ρ c) (by decide))

/-! ## What each region and each stretch leaves -/

/-- After the first region: the product of the features by the first weights. -/
theorem V1_v0 (c : Dev nD) : V1 m ρ c main_v0 = prod (M := 100000) (K := 128) (N := 64) (m ((c : Thread nD τ).loc main_arg0)) (m ((c : Thread nD τ).loc main_arg2)) :=
  (W1_arr m ρ c 2).trans (array0 (V0 m ρ) c)

/-- After the first stretch: the message-passing function of that product and the edge list. -/
theorem V4_v43 (c : Dev nD) : V4 m ρ c main_v43 = Cert.Net.mid (F := Ideal) (V1 m ρ c main_v0) (V1 m ρ c main_arg1) :=
  Cert.KernelIdeal.StretchA.stretch (W1 m ρ c)

/-- After the second region: bias and clamp. -/
theorem V5_v44 (c : Dev nD) : V5 m ρ c main_v44 = clamp (rowBias (n := 100000) (f := 64) (V4 m ρ c main_v43) (V4 m ρ c main_arg3)) :=
  (W5_arr m ρ c 2).trans (array1 (V4 m ρ) c)

/-- After the third region: the product by the second weights. -/
theorem V6_v45 (c : Dev nD) : V6 m ρ c main_v45 = prod (M := 100000) (K := 64) (N := 64) (V5 m ρ c main_v44) (V5 m ρ c main_arg4) :=
  (W6_arr m ρ c 2).trans (array2 (V5 m ρ) c)

/-- After the second stretch: the message-passing function again. -/
theorem V9_v88 (c : Dev nD) : V9 m ρ c main_v88 = Cert.Net.mid (F := Ideal) (V6 m ρ c main_v45) (V6 m ρ c main_arg1) :=
  Cert.KernelIdeal.StretchB.stretch (W6 m ρ c)

/-- After the fourth region: bias and clamp. -/
theorem V10_v89 (c : Dev nD) : V10 m ρ c main_v89 = clamp (rowBias (n := 100000) (f := 64) (V9 m ρ c main_v88) (V9 m ρ c main_arg5)) :=
  (W10_arr m ρ c 2).trans (array3 (V9 m ρ) c)

/-- After the fifth region: the head. -/
theorem W11_v90 (c : Dev nD) : W11 m ρ c (Proc.devRef .tc main_v90)
    = head (n := 100000) (a := 64) (b := 32) (c := 1) (V10 m ρ c main_v89) (V10 m ρ c main_arg6) (V10 m ρ c main_arg7) (V10 m ρ c main_arg8) (V10 m ρ c main_arg9) :=
  (W11_arr m ρ c 5).trans (array4 (V10 m ρ) c)

/-! ## The result buffer is the network of the arguments -/

theorem kernel_value (c : Dev nD) : W11 m ρ c (Proc.devRef .tc main_v90)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W11_v90, V10_v89, V9_v88, V6_v45, V5_v44, V4_v43, V1_v0]
  rw [V10_arg6, V10_arg7, V10_arg8, V10_arg9, V9_arg5, V6_arg1, V5_arg4, V4_arg3, V1_arg1]
  rfl

end Cert.KernelIdeal.Chain

end
-- ==== Proof.lean ====
/-
  The certificate of a two-layer graph convolution network with a two-layer head, blocked over ten row blocks of
  10000 nodes, against its plain reference, over the extended reals.

  Both programs compute, from node features x, an edge list e and eight weight arrays, the function
      net = head (layer (layer x e W1 b1) e W2 b2) W3 b3 W4 b4,
  where a layer is a product with the weights, the message-passing stretch (degrees by a scatter-add, their inverse
  square roots gathered at both ends of each edge, the gathered rows weighted and summed at their targets), a bias along
  the rows and a clamp below at zero, and the head is a product, bias, clamp, product, bias. The reference spells every
  step as a host operation. The kernel computes the products, the bias-and-clamp steps and the head in five blocked
  regions and leaves the message-passing stretch to the same host operations; every blocked step is row-local, so its
  ten row blocks are the rows of the whole-array step, and a product into a zero accumulator, a dot_general and the
  sum over the contracted axis are one sum. No law beyond that is used, so finiteness of the inputs is not needed.

  The three frames: the two kernels' are the generated frames; the reference's is its run with the result dropped.
  The idealization rewrote nothing, so it preserves trivially.
-/
import proofs.«155897_j20770461844169_1_alg».proof.Defs
import proofs.«155897_j20770461844169_1_alg».proof.Proof.Gen.Kernel
import proofs.«155897_j20770461844169_1_alg».proof.Proof.Gen.Kernel.Skeleton
import proofs.«155897_j20770461844169_1_alg».proof.Proof.Gen.Kernel.Launch
import proofs.«155897_j20770461844169_1_alg».proof.Proof.Gen.Kernel.Points
import proofs.«155897_j20770461844169_1_alg».proof.Proof.Gen.Kernel.Frame
import proofs.«155897_j20770461844169_1_alg».proof.Proof.Gen.KernelIdeal
import proofs.«155897_j20770461844169_1_alg».proof.Proof.Gen.KernelIdeal.Skeleton
import proofs.«155897_j20770461844169_1_alg».proof.Proof.Gen.KernelIdeal.Launch
import proofs.«155897_j20770461844169_1_alg».proof.Proof.Gen.KernelIdeal.Points
import proofs.«155897_j20770461844169_1_alg».proof.Proof.Gen.KernelIdeal.Frame
import proofs.«155897_j20770461844169_1_alg».proof.Proof.Gen.ReferenceIdeal
import proofs.«155897_j20770461844169_1_alg».proof.Proof.Gen.Pre_finite_inputs
import proofs.«155897_j20770461844169_1_alg».proof.Proof.RefRun
import proofs.«155897_j20770461844169_1_alg».proof.Proof.RefNet
import proofs.«155897_j20770461844169_1_alg».proof.Proof.KernelRun
import proofs.«155897_j20770461844169_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the network of the argument arrays, which agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.Net.ref_value m' c).trans ?_
    obtain ⟨h0, h1, h2, h3, h4, h5, h6, h7, h8, h9⟩ := hagree c
    rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
